-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x16 .f32) (main_arg1 : IVec S3200000 32) (main_arg2 : IVec S3200000 32) (main_arg3 : FVec F S3200000 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  main_v8
-- ==== Kernel.lean ====
abbrev S100000x16 : Shape := ⟨2, ![100000, 16]⟩
abbrev S3200000 : Shape := ⟨1, ![3200000]⟩
abbrev S5000x16 : Shape := ⟨2, ![5000, 16]⟩
abbrev S_ : Shape := ⟨0, ![]⟩
abbrev S3200000x1 : Shape := ⟨2, ![3200000, 1]⟩
abbrev S3200000x16 : Shape := ⟨2, ![3200000, 16]⟩
abbrev S8000x16 : Shape := ⟨2, ![8000, 16]⟩
abbrev S8000x1 : Shape := ⟨2, ![8000, 1]⟩

abbrev nBuf : Space → Nat
  | .hbm => 30
  | .vmem => 12
  | .smem => 0
  | _ => 0

abbrev bufTy : (tb : Table) → Fin (tcTables nBuf tb) → BufTy
  | .hbm, ⟨0, _⟩ => ⟨S100000x16, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x16, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x16, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S3200000x1, .f32⟩
  | .hbm, ⟨24, _⟩ => ⟨S3200000x16, .f32⟩
  | .hbm, ⟨25, _⟩ => ⟨S_, .f32⟩
  | .hbm, ⟨26, _⟩ => ⟨S100000x16, .f32⟩
  | .hbm, ⟨27, _⟩ => ⟨S3200000x1, .i32⟩
  | .hbm, ⟨28, _⟩ => ⟨S100000x16, .f32⟩
  | .hbm, ⟨29, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x1, .f32⟩
  | .local _ .vmem, ⟨9, _⟩ => ⟨S8000x1, .f32⟩
  | .local _ .vmem, ⟨10, _⟩ => ⟨S8000x16, .f32⟩
  | .local _ .vmem, ⟨11, _⟩ => ⟨S8000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x16_S5000x16_0_0 : ∀ a, (![0, 0] : Fin 2 → Nat) a + S5000x16.size a ≤ S5000x16.size a
  h_S5000x16 : 0 < S5000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  bcast_S_S100000x16 : S_.BroadcastsInDim S100000x16 (![] : Fin 0 → Fin S100000x16.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S100000x16.size a
  hwx0_1 : ∀ i : grid0.Coords, EltTy.bits .f32 = 32 ∨ (Rect.block (s := S100000x16) S5000x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S3200000x16.size a
  hwx1_0 : ∀ i : grid1.Coords, EltTy.bits .f32 = 32 ∨ (Rect.block (s := S3200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S3200000x16.size a
  hwx1_1 : ∀ i : grid1.Coords, EltTy.bits .f32 = 32 ∨ (Rect.block (s := S3200000x16) S8000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S3200000x1.size a
  hwx1_2 : ∀ i : grid1.Coords, EltTy.bits .f32 = 32 ∨ (Rect.block (s := S3200000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S3200000x16.size a
  hwx1_3 : ∀ i : grid1.Coords, EltTy.bits .f32 = 32 ∨ (Rect.block (s := S3200000x16) S8000x16.size (cc1_transform_3 i) (hinb1_3 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩

abbrev nBuf : Space → Nat
  | .hbm => 59
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S_, .f32⟩
  | .hbm, ⟨5, _⟩ => ⟨S100000x16, .f32⟩
  | .hbm, ⟨6, _⟩ => ⟨S100000x16, .f32⟩
  | .hbm, ⟨7, _⟩ => ⟨S_, .f32⟩
  | .hbm, ⟨8, _⟩ => ⟨S100000x16, .f32⟩
  | .hbm, ⟨9, _⟩ => ⟨S100000x16, .f32⟩
  | .hbm, ⟨10, _⟩ => ⟨S100000x16, .f32⟩
  | .hbm, ⟨11, _⟩ => ⟨S_, .f32⟩
  | .hbm, ⟨12, _⟩ => ⟨S100000x16, .f32⟩
  | .hbm, ⟨13, _⟩ => ⟨S100000x16, .f32⟩
  | .hbm, ⟨14, _⟩ => ⟨S_, .f32⟩
  | .hbm, ⟨15, _⟩ => ⟨S100000x16, .f32⟩
  | .hbm, ⟨16, _⟩ => ⟨S100000x16, .f32⟩
  | .hbm, ⟨17, _⟩ => ⟨S100000x16, .f32⟩
  | .hbm, ⟨18, _⟩ => ⟨S_, .f32⟩
  | .hbm, ⟨19, _⟩ => ⟨S100000x16, .f32⟩
  | .hbm, ⟨20, _⟩ => ⟨S100000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x16, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S3200000x1, .f32⟩
  | .hbm, ⟨40, _⟩ => ⟨S3200000x16, .f32⟩
  | .hbm, ⟨41, _⟩ => ⟨S3200000x16, .f32⟩
  | .hbm, ⟨42, _⟩ => ⟨S3200000x16, .f32⟩
  | .hbm, ⟨43, _⟩ => ⟨S_, .f32⟩
  | .hbm, ⟨44, _⟩ => ⟨S3200000x16, .f32⟩
  | .hbm, ⟨45, _⟩ => ⟨S3200000x16, .f32⟩
  | .hbm, ⟨46, _⟩ => ⟨S_, .f32⟩
  | .hbm, ⟨47, _⟩ => ⟨S3200000x16, .f32⟩
  | .hbm, ⟨48, _⟩ => ⟨S3200000x16, .f32⟩
  | .hbm, ⟨49, _⟩ => ⟨S_, .f32⟩
  | .hbm, ⟨50, _⟩ => ⟨S3200000x16, .f32⟩
  | .hbm, ⟨51, _⟩ => ⟨S3200000x16, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S3200000x16 : S_.BroadcastsInDim S3200000x16 (![] : Fin 0 → Fin S3200000x16.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its result named.

  Every weakly fair execution of @main terminates, nothing faulting; in the final state the result array holds what
  the fold of @main's four segments — the self-dynamics region, the host operations that gather the rows, the message
  region, the host operations that add the messages up — leaves at it (`Gen.W4`), and the argument arrays are as
  launched. The segments, their thread states and the argument lemmas are the frame certificate's; only the reading of
  the last thread state against the final memory asks for one more buffer, the result's.
-/
import proofs.«121304_j12206297055729_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- @main runs; the result array ends at the last boundary's contents, the arguments as launched. -/
theorem run_result : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.Dynamics.lean ====
/-
  Mutualistic dynamics on a graph, one entry at a time.

  A node's state entry `a` grows by itself as `b + a·(1 − a/k)·(a/c − 1)` with `b = 0.1`, `k = 5`, `c = 1`, and an
  edge of weight `w` between entries `a` (source) and `o` (destination) contributes `w·a·o / (d + e·a + h·o)` with
  `d = 5`, `e = 0.9`, `h = 0.1`. Both are stated over any float instance, with the constants as the 32-bit words
  the two programs carry (the same words on both sides, so they are never evaluated), and with the operations in the
  order both programs apply them: no law of arithmetic is used anywhere in this certificate.
-/
import Idealize.ShloMosaic.PureOps.Ideal

noncomputable section

namespace Cert.Mutualism

open Idealize.ShloMosaic

variable {F : FTy → Type} [FloatOps F]

/-- Self-dynamics of one state entry: `0.1 + a·(1 − a/5)·(a/1 − 1)`. -/
def growth (a : F .f32) : F .f32 :=
  FloatOps.addf (FloatOps.ofBits .f32 0x3DCCCCCD#32)
    (FloatOps.mulf
      (FloatOps.mulf a (FloatOps.subf (FloatOps.ofBits .f32 0x3F800000#32) (FloatOps.divf a (FloatOps.ofBits .f32 0x40A00000#32))))
      (FloatOps.subf (FloatOps.divf a (FloatOps.ofBits .f32 0x3F800000#32)) (FloatOps.ofBits .f32 0x3F800000#32)))

/-- One edge's contribution: `(w·a·o) / ((5 + 0.9·a) + 0.1·o)`. -/
def interaction (w a o : F .f32) : F .f32 :=
  FloatOps.divf (FloatOps.mulf (FloatOps.mulf w a) o)
    (FloatOps.addf
      (FloatOps.addf (FloatOps.ofBits .f32 0x40A00000#32) (FloatOps.mulf (FloatOps.ofBits .f32 0x3F666666#32) a))
      (FloatOps.mulf (FloatOps.ofBits .f32 0x3DCCCCCD#32) o))

end Cert.Mutualism

end
-- ==== Proof.SelfRegion.lean ====
/-
  The first region: the self-dynamics of every state entry.

  The region walks the [100000, 16] state array in 20 blocks of 5000 rows. At block `t` it loads rows
  `5000·t … 5000·t + 4999`, applies `Mutualism.growth` to every entry and writes the block back at the same rows of
  the result array. The blocks tile the array (row `r` lies in block `r / 5000`), so after the region the result array
  is `growth` of the state array, entry by entry — whatever the state array held when the region was entered.
-/
import proofs.«121304_j12206297055729_2_alg».proof.Proof.Gen.KernelIdeal.Frame
import proofs.«121304_j12206297055729_2_alg».proof.Proof.Dynamics
import Idealize.ShloMosaic.Lib.Pipeline.Value

noncomputable section

namespace Cert.KernelIdeal.SelfRegion

open Cert.KernelIdeal Cert.KernelIdeal.Gen Idealize.ShloMosaic Idealize.ShloMosaic.TcCoe Idealize.SL.Sem
open Idealize.ShloMosaic.Pipeline (Dat)
open Cert.Mutualism

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The whole state array with `growth` applied to every entry. -/
def grown (a : S100000x16.Idx → Elt F .f32) : S100000x16.Idx → Elt F .f32 := fun i => growth (a i)

/-- What the body stores is `growth` of what it loaded, entry by entry. -/
theorem stored_eq (x : Vec F S5000x16 .f32) : k0_pay1 x = fun j => growth (x j) := rfl

/-- Block `t` of either window starts at row `5000·t`, column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `grown` of the state array as the region finds it. -/
theorem flushed_eq (c : Dev nD) (t : Fin cfg0.N) :
    (dat0 V c).flushed 1 t = ((cfg0.win 1).blk t).view.read (Elt F) (grown (V c main_arg0)) := by
  show (cfg0.win 1).cut (grid0.coords t) ((dat0 V c).after 1 t) = _
  rw [after0_1]
  unfold out0_1
  rw [View.canon_unit_zero origin]
  simp only [View.ld_unit_zero (S := S5000x16) origin]
  rw [stored_eq]
  obtain ⟨e0, e1, e2, e3⟩ := block_index t
  funext j
  show growth (V c main_arg0 (((cfg0.win 0).blk t).view.emb j)) = growth (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 16 + 1 * (j 1).val = win0_1.index t (1 : Fin 2) * 16 + 1 * (j 1).val; omega
  rw [h0]

/-- An entry of the result array is in block `t` iff each coordinate is in the block's range on its axis. -/
theorem mem_block (t : Fin cfg0.N) (i : S100000x16.Idx) :
    i ∈ ((cfg0.win 1).blk t).view.set ↔ ∀ a : Fin 2, win0_1.index t a * S5000x16.size a ≤ (i a).val ∧ (i a).val < win0_1.index t a * S5000x16.size a + S5000x16.size a := by
  show i ∈ ((View.whole main_v0).slice (win0_1.rect t)).set ↔ _
  rw [View.set_slice_whole, Rect.mem_set_unit]
  exact Iff.rfl

/-- Every entry lies in the block of its row: row `r` is in block `r / 5000`. -/
theorem covered (i : S100000x16.Idx) :
    ∃ t : Fin cfg0.N, (cfg0.win 1).flush t = true ∧ i ∈ ((cfg0.win 1).blk t).view.set := by
  have hi0 : (i 0).val < 100000 := (i 0).isLt
  have hi1 : (i 1).val < 16 := (i 1).isLt
  have hN : grid0.N = 20 := N_0
  have hlt : (i 0).val / 5000 < grid0.N := by rw [hN]; omega
  obtain ⟨-, -, e2, e3⟩ := block_index ⟨(i 0).val / 5000, hlt⟩
  refine ⟨⟨(i 0).val / 5000, hlt⟩, flush0_1 _, ?_⟩
  rw [mem_block]
  intro a
  match a with
  | ⟨0, _⟩ =>
    show win0_1.index ⟨(i 0).val / 5000, hlt⟩ (0 : Fin 2) * 5000 ≤ (i 0).val ∧ (i 0).val < win0_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win0_1.index ⟨(i 0).val / 5000, hlt⟩ (1 : Fin 2) * 16 ≤ (i 1).val ∧ (i 1).val < win0_1.index ⟨(i 0).val / 5000, hlt⟩ (1 : Fin 2) * 16 + 16
    rw [e3]; omega

/-- After the region the result array is `growth` of the state array, entry by entry. -/
theorem result (c : Dev nD) : (dat0 V c).arrAt 1 cfg0.N = grown (V c main_arg0) :=
  (dat0 V c).arrAt_eq_of_cover 1 (grown (V c main_arg0)) (fun t _ => flushed_eq V c t) covered

end Cert.KernelIdeal.SelfRegion

end
-- ==== Proof.MsgRegion.lean ====
/-
  The second region: one message per edge and state coordinate.

  The region walks the 3200000 edges in 400 blocks of 8000. At block `t` it loads rows `8000·t … 8000·t + 7999` of the
  source rows [E, 16], of the destination rows [E, 16] and of the edge weights kept as a column [E, 1], spreads each
  weight along its row, applies `Mutualism.interaction` entry by entry and writes the block back at the same rows of
  the message array. The blocks tile the array (edge `e` lies in block `e / 8000`), so after the region the message
  array at (e, k) is `interaction (weight e) (source e k) (destination e k)` — whatever the three arrays held when
  the region was entered.
-/
import proofs.«121304_j12206297055729_2_alg».proof.Proof.Gen.KernelIdeal.Frame
import proofs.«121304_j12206297055729_2_alg».proof.Proof.Dynamics
import Idealize.ShloMosaic.Lib.Pipeline.Value
import Idealize.ShloMosaic.Lib.ValueIdx

noncomputable section

namespace Cert.KernelIdeal.MsgRegion

open Cert.KernelIdeal Cert.KernelIdeal.Gen Idealize.ShloMosaic Idealize.ShloMosaic.TcCoe Idealize.SL.Sem
open Idealize.ShloMosaic.Pipeline (Dat)
open Idealize.ShloMosaic.ValueIdx
open Cert.Mutualism

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The message array of a weight column and two arrays of gathered rows. -/
def messages (w : S3200000x1.Idx → Elt F .f32) (a o : S3200000x16.Idx → Elt F .f32) : S3200000x16.Idx → Elt F .f32 :=
  fun i => interaction (w (ix2 (⟨(i 0).val, idx2_lt0 i⟩ : Fin 3200000) (0 : Fin 1))) (a i) (o i)

/-- A weight column spread along its rows, read at (p, q): the weight of row p. -/
theorem spread_apply (w : Vec F S8000x1 .f32) (h : S8000x1.Broadcasts S8000x16) (p : Fin 8000) (q : Fin 16) :
    broadcastTo S8000x16 w h (ix2 p q) = w (ix2 p (0 : Fin 1)) :=
  broadcastTo_apply w h (ix2 p q) (ix2 p (0 : Fin 1)) (fun a => match a with
    | ⟨0, _⟩ => by show p.val = if (8000 : Nat) = 1 then 0 else p.val; rw [if_neg (by decide)]
    | ⟨1, _⟩ => by show 0 = if (1 : Nat) = 1 then 0 else q.val; rw [if_pos rfl])

/-- What the body stores at (p, q) is the interaction of row p's weight with the two loaded entries at (p, q). -/
theorem stored_apply (x0 x1 : Vec F S8000x16 .f32) (x2 : Vec F S8000x1 .f32) (p : Fin 8000) (q : Fin 16) :
    k1_pay1 x0 x1 x2 (ix2 p q) = interaction (x2 (ix2 p (0 : Fin 1))) (x0 (ix2 p q)) (x1 (ix2 p q)) := by
  unfold k1_pay1
  rw [shapeCast_self x0, shapeCast_self x1, shapeCast_self x2]
  show interaction (broadcastTo S8000x16 x2 _ (ix2 p q)) (x0 (ix2 p q)) (x1 (ix2 p q)) = _
  rw [spread_apply]

/-- Block `t` of every window starts at row `8000·t`, column 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `messages` of the three arrays as the region finds them. -/
theorem flushed_eq (c : Dev nD) (t : Fin cfg1.N) :
    (dat1 V c).flushed 3 t = ((cfg1.win 3).blk t).view.read (Elt F) (messages (V c main_v15) (V c main_v7) (V c main_v14)) := by
  show (cfg1.win 3).cut (grid1.coords t) ((dat1 V c).after 3 t) = _
  rw [after1_3]
  unfold out1_3
  rw [View.canon_unit_zero origin]
  simp only [View.ld_unit_zero (S := S8000x16) origin, View.ld_unit_zero (S := S8000x1) origin]
  obtain ⟨e0, e1, e2, e3, e4, e5, e6, e7⟩ := block_index t
  funext j
  obtain ⟨p, q, rfl⟩ : ∃ (p : Fin 8000) (q : Fin 16), j = ix2 p q := ⟨j 0, j 1, eq_ix2 j⟩
  refine (stored_apply _ _ _ p q).trans ?_
  show interaction (V c main_v15 (((cfg1.win 2).blk t).view.emb (ix2 p (0 : Fin 1))))
      (V c main_v7 (((cfg1.win 0).blk t).view.emb (ix2 p q))) (V c main_v14 (((cfg1.win 1).blk t).view.emb (ix2 p q)))
    = interaction (V c main_v15 (ix2 (⟨((((cfg1.win 3).blk t).view.emb (ix2 p q)) 0).val, idx2_lt0 _⟩ : Fin 3200000) (0 : Fin 1)))
      (V c main_v7 (((cfg1.win 3).blk t).view.emb (ix2 p q))) (V c main_v14 (((cfg1.win 3).blk t).view.emb (ix2 p q)))
  have h0 : ((cfg1.win 0).blk t).view.emb (ix2 p q) = ((cfg1.win 3).blk t).view.emb (ix2 p q) := by
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 16 + 1 * q.val = win1_3.index t (1 : Fin 2) * 16 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 8000 + 1 * p.val = win1_3.index t (0 : Fin 2) * 8000 + 1 * p.val; omega
    | ⟨1, _⟩ => show win1_1.index t (1 : Fin 2) * 16 + 1 * q.val = win1_3.index t (1 : Fin 2) * 16 + 1 * q.val; omega
  have h2 : ((cfg1.win 2).blk t).view.emb (ix2 p (0 : Fin 1))
      = ix2 (⟨((((cfg1.win 3).blk t).view.emb (ix2 p q)) 0).val, idx2_lt0 _⟩ : Fin 3200000) (0 : Fin 1) := by
    funext a; apply Fin.ext
    match a with
    | ⟨0, _⟩ => show win1_2.index t (0 : Fin 2) * 8000 + 1 * p.val = win1_3.index t (0 : Fin 2) * 8000 + 1 * p.val; omega
    | ⟨1, _⟩ => show win1_2.index t (1 : Fin 2) * 1 + 1 * 0 = 0; omega
  rw [h0, h1, h2]

/-- An entry of the message array is in block `t` iff each coordinate is in the block's range on its axis. -/
theorem mem_block (t : Fin cfg1.N) (i : S3200000x16.Idx) :
    i ∈ ((cfg1.win 3).blk t).view.set ↔ ∀ a : Fin 2, win1_3.index t a * S8000x16.size a ≤ (i a).val ∧ (i a).val < win1_3.index t a * S8000x16.size a + S8000x16.size a := by
  show i ∈ ((View.whole main_v16).slice (win1_3.rect t)).set ↔ _
  rw [View.set_slice_whole, Rect.mem_set_unit]
  exact Iff.rfl

/-- Every entry lies in the block of its edge: edge `e` is in block `e / 8000`. -/
theorem covered (i : S3200000x16.Idx) :
    ∃ t : Fin cfg1.N, (cfg1.win 3).flush t = true ∧ i ∈ ((cfg1.win 3).blk t).view.set := by
  have hi0 : (i 0).val < 3200000 := (i 0).isLt
  have hi1 : (i 1).val < 16 := (i 1).isLt
  have hN : grid1.N = 400 := N_1
  have hlt : (i 0).val / 8000 < grid1.N := by rw [hN]; omega
  obtain ⟨-, -, -, -, -, -, e6, e7⟩ := block_index ⟨(i 0).val / 8000, hlt⟩
  refine ⟨⟨(i 0).val / 8000, hlt⟩, flush1_3 _, ?_⟩
  rw [mem_block]
  intro a
  match a with
  | ⟨0, _⟩ =>
    show win1_3.index ⟨(i 0).val / 8000, hlt⟩ (0 : Fin 2) * 8000 ≤ (i 0).val ∧ (i 0).val < win1_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, hlt⟩ (1 : Fin 2) * 16 ≤ (i 1).val ∧ (i 1).val < win1_3.index ⟨(i 0).val / 8000, hlt⟩ (1 : Fin 2) * 16 + 16
    rw [e7]; omega

/-- After the region the message array is `messages` of the weight column and the two arrays of gathered rows. -/
theorem result (c : Dev nD) :
    (dat1 V c).arrAt 3 cfg1.N = messages (V c main_v15) (V c main_v7) (V c main_v14) :=
  (dat1 V c).arrAt_eq_of_cover 3 (messages (V c main_v15) (V c main_v7) (V c main_v14)) (fun t _ => flushed_eq V c t) covered

end Cert.KernelIdeal.MsgRegion

end
-- ==== Proof.HostSide.lean ====
/-
  The idealized kernel's result as one term of its argument arrays.

  @main is four segments. The first region leaves `growth` of the state array in its result; the host operations
  between the regions gather the source rows and the destination rows of the state array (an index below zero counted
  from the end, as the host's indexing does) and recast the edge weights [E] as a column [E, 1]; the second region
  leaves the messages of those three arrays; the last host operations add every message into the row of its source
  node, starting from zeros, and add the self-dynamics to that. Each boundary's contents are read back to the launch
  memory: no region and no host operation writes an argument array, and the second region does not touch the first
  region's result.
-/
import proofs.«121304_j12206297055729_2_alg».proof.Proof.Gen.KernelIdeal.Frame
import proofs.«121304_j12206297055729_2_alg».proof.Proof.SelfRegion
import proofs.«121304_j12206297055729_2_alg».proof.Proof.MsgRegion
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- An index vector as the column a gather takes, an index below zero counted from the end of the 100000 rows. -/
def rowIndex (a : (⟨S3200000, .i32⟩ : BufTy).Contents (Elt F)) : (⟨S3200000x1, .i32⟩ : BufTy).Contents (Elt F) :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

/-- The rows of the state array an index vector names. -/
def rowsAt (x : (⟨S100000x16, .f32⟩ : BufTy).Contents (Elt F)) (a : (⟨S3200000, .i32⟩ : BufTy).Contents (Elt F)) :
    (⟨S3200000x16, .f32⟩ : BufTy).Contents (Elt F) :=
  Host.gather gather_S100000x16_S3200000x1_S3200000x16_1_0_n_n_0_1_116 x (rowIndex a)

/-- Every message added into the row of its source node, from zeros. -/
def summed (a : (⟨S3200000, .i32⟩ : BufTy).Contents (Elt F)) (u : (⟨S3200000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 a) u

/-! ## After the first region -/

theorem state_after_self (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem sources_after_self (c : Dev nD) : W1 m ρ c (Proc.devRef .tc main_arg1) = m ((c : Thread nD τ).loc main_arg1) :=
  W1_of_ne m ρ c main_arg1 (by decide)
theorem targets_after_self (c : Dev nD) : W1 m ρ c (Proc.devRef .tc main_arg2) = m ((c : Thread nD τ).loc main_arg2) :=
  W1_of_ne m ρ c main_arg2 (by decide)
theorem weights_after_self (c : Dev nD) : W1 m ρ c (Proc.devRef .tc main_arg3) = m ((c : Thread nD τ).loc main_arg3) :=
  W1_of_ne m ρ c main_arg3 (by decide)

/-- The first region's result is `growth` of the launch state array. -/
theorem self_after_self (c : Dev nD) :
    W1 m ρ c (Proc.devRef .tc main_v0) = SelfRegion.grown (m ((c : Thread nD τ).loc main_arg0)) :=
  (W1_arr m ρ c 1).trans (SelfRegion.result (V0 m ρ) c)

/-! ## After the gathers -/

theorem source_rows (c : Dev nD) :
    V2 m ρ c main_v7 = rowsAt (m ((c : Thread nD τ).loc main_arg0)) (m ((c : Thread nD τ).loc main_arg1)) := by
  show StableHlo.after hostOps1 (W1 m ρ c) (Proc.devRef .tc main_v7) = _
  after_results
  rw [state_after_self, sources_after_self]
  rfl

theorem target_rows (c : Dev nD) :
    V2 m ρ c main_v14 = rowsAt (m ((c : Thread nD τ).loc main_arg0)) (m ((c : Thread nD τ).loc main_arg2)) := by
  show StableHlo.after hostOps1 (W1 m ρ c) (Proc.devRef .tc main_v14) = _
  after_results
  rw [state_after_self, targets_after_self]
  rfl

theorem weight_column (c : Dev nD) :
    V2 m ρ c main_v15 = shapeCast S3200000x1 (m ((c : Thread nD τ).loc main_arg3)) shapeCasts_S3200000_S3200000x1 := by
  show StableHlo.after hostOps1 (W1 m ρ c) (Proc.devRef .tc main_v15) = _
  after_results
  rw [weights_after_self]
  rfl

theorem self_after_gathers (c : Dev nD) :
    W2 m ρ c (Proc.devRef .tc main_v0) = SelfRegion.grown (m ((c : Thread nD τ).loc main_arg0)) := by
  show StableHlo.after hostOps1 (W1 m ρ c) (Proc.devRef .tc main_v0) = _
  after_results
  exact self_after_self m ρ c

theorem sources_after_gathers (c : Dev nD) :
    W2 m ρ c (Proc.devRef .tc main_arg1) = m ((c : Thread nD τ).loc main_arg1) := by
  show StableHlo.after hostOps1 (W1 m ρ c) (Proc.devRef .tc main_arg1) = _
  after_results
  exact sources_after_self m ρ c

/-! ## After the second region -/

theorem messages_after_msg (c : Dev nD) :
    W3 m ρ c (Proc.devRef .tc main_v16)
      = MsgRegion.messages (shapeCast S3200000x1 (m ((c : Thread nD τ).loc main_arg3)) shapeCasts_S3200000_S3200000x1)
          (rowsAt (m ((c : Thread nD τ).loc main_arg0)) (m ((c : Thread nD τ).loc main_arg1)))
          (rowsAt (m ((c : Thread nD τ).loc main_arg0)) (m ((c : Thread nD τ).loc main_arg2))) := by
  refine ((W3_arr m ρ c 3).trans (MsgRegion.result (V2 m ρ) c)).trans ?_
  rw [source_rows, target_rows, weight_column]

theorem self_after_msg (c : Dev nD) :
    W3 m ρ c (Proc.devRef .tc main_v0) = SelfRegion.grown (m ((c : Thread nD τ).loc main_arg0)) :=
  (W3_of_ne m ρ c main_v0 (by decide)).trans (self_after_gathers m ρ c)

theorem sources_after_msg (c : Dev nD) :
    W3 m ρ c (Proc.devRef .tc main_arg1) = m ((c : Thread nD τ).loc main_arg1) :=
  (W3_of_ne m ρ c main_arg1 (by decide)).trans (sources_after_gathers m ρ c)

/-! ## The result -/

/-- The kernel's result: self-dynamics plus, per node, the sum of the messages of the edges leaving it. -/
theorem result (c : Dev nD) :
    W4 m ρ c (Proc.devRef .tc main_v20)
      = addf (SelfRegion.grown (m ((c : Thread nD τ).loc main_arg0)))
          (summed (m ((c : Thread nD τ).loc main_arg1))
            (MsgRegion.messages (shapeCast S3200000x1 (m ((c : Thread nD τ).loc main_arg3)) shapeCasts_S3200000_S3200000x1)
              (rowsAt (m ((c : Thread nD τ).loc main_arg0)) (m ((c : Thread nD τ).loc main_arg1)))
              (rowsAt (m ((c : Thread nD τ).loc main_arg0)) (m ((c : Thread nD τ).loc main_arg2))))) := by
  show StableHlo.after hostOps2 (W3 m ρ c) (Proc.devRef .tc main_v20) = _
  after_results
  rw [self_after_msg, sources_after_msg, messages_after_msg]
  rfl

end Cert.KernelIdeal.HostSide

end
-- ==== Proof.RefStages.lean ====
/-
  The reference's two pointwise stages, read at an entry.

  The reference computes the self-dynamics of the whole state array and the messages of all edges by whole-array
  operations. Read at one index, the first is `Mutualism.growth` of the state entry and the second is
  `Mutualism.interaction` of the edge's weight with the two gathered entries: the same constants, the same
  operations in the same order; the host's quotient is the extended reals' quotient, as the vector unit's is.
-/
import proofs.«121304_j12206297055729_2_alg».proof.Proof.Gen.ReferenceIdeal.Read
import proofs.«121304_j12206297055729_2_alg».proof.Proof.Dynamics
import Idealize.ShloMosaic.Lib.ValueIdx

noncomputable section

namespace Cert.ReferenceIdeal.Stages

open Cert.ReferenceIdeal Cert.ReferenceIdeal.Read Idealize.ShloMosaic Idealize.ShloMosaic.TcCoe
open Idealize.ShloMosaic.ValueIdx
open Cert.Mutualism

/-- The reference's self-dynamics array at an entry is `growth` of the state entry. -/
theorem self_apply (x0 : (⟨S100000x16, .f32⟩ : BufTy).Contents (Elt Ideal)) (i : S100000x16.Idx) :
    val_main_v11 (F := Ideal) x0 i = growth (F := Ideal) (x0 i) := by
  simp only [val_main_v11_apply, val_main_v10_apply, val_main_cst_3_apply, val_main_v9_apply, val_main_v4_apply,
    val_main_v3_apply, val_main_v2_apply, val_main_cst_0_apply, val_main_v1_apply, val_main_v0_apply, val_main_cst_apply,
    val_main_v8_apply, val_main_v6_apply, val_main_v5_apply, val_main_cst_1_apply, val_main_v7_apply, val_main_cst_2_apply]
  rfl

/-- The weight the reference spreads over row `i 0` is the edge's weight. -/
theorem weight_index (i : S3200000x16.Idx) :
    idx_main_v26 (idx_main_v27 i) = ix1 (⟨(i 0).val, idx2_lt0 i⟩ : Fin 3200000) :=
  funext fun a => match a with | ⟨0, _⟩ => rfl

/-- The reference's message array at (e, k) is the interaction of edge e's weight with the gathered entries at (e, k). -/
theorem message_apply (x0 : (⟨S100000x16, .f32⟩ : BufTy).Contents (Elt Ideal)) (x1 x2 : (⟨S3200000, .i32⟩ : BufTy).Contents (Elt Ideal))
    (x3 : (⟨S3200000, .f32⟩ : BufTy).Contents (Elt Ideal)) (i : S3200000x16.Idx) :
    val_main_v37 (F := Ideal) x0 x1 x2 x3 i
      = interaction (F := Ideal) (x3 (ix1 (⟨(i 0).val, idx2_lt0 i⟩ : Fin 3200000))) (val_main_v18 (F := Ideal) x0 x1 i) (val_main_v25 (F := Ideal) x0 x2 i) := by
  simp only [val_main_v37_apply, val_main_v29_apply, val_main_v28_apply, val_main_v27_apply, val_main_v26_apply,
    val_main_v36_apply, val_main_v33_apply, val_main_v32_apply, val_main_cst_8_apply, val_main_v31_apply, val_main_v30_apply,
    val_main_cst_7_apply, val_main_v35_apply, val_main_v34_apply, val_main_cst_9_apply]
  rw [weight_index]
  rfl

end Cert.ReferenceIdeal.Stages

end
-- ==== Proof.Bridge.lean ====
/-
  The two results are one array.

  The idealized kernel ends at `growth` of the state array plus the messages summed per source node, the messages being
  `interaction` of each edge's weight (read from the column the weights were recast as) with the gathered source and
  destination entries. The reference's last stage is the sum of its self-dynamics stage and the same scatter-add of its
  message stage. Entry by entry the self-dynamics stages agree and the message stages agree (the weight column at
  (e, 0) is the weight vector at e; the gathers are the same operation on the same arrays), and the additions around
  them are spelled alike. No arithmetic law is needed, so nothing here asks the inputs to be finite.
-/
import proofs.«121304_j12206297055729_2_alg».proof.Proof.HostSide
import proofs.«121304_j12206297055729_2_alg».proof.Proof.RefStages
import Idealize.ShloMosaic.Lib.Pipeline.Value
import Idealize.ShloMosaic.Lib.ValueIdx

noncomputable section

namespace Cert.Bridge

open Idealize.ShloMosaic Idealize.ShloMosaic.TcCoe
open Idealize.ShloMosaic.ValueIdx
open Cert.Mutualism

/-- A vector [E] recast as a column [E, 1], read at (e, 0), is the vector at e. -/
theorem column_apply {α : Type} (x : Cert.KernelIdeal.S3200000.Idx → α)
    (h : Cert.KernelIdeal.S3200000.ShapeCasts Cert.KernelIdeal.S3200000x1) (e : Fin 3200000) :
    shapeCast Cert.KernelIdeal.S3200000x1 x h (ix2 e (0 : Fin 1)) = x (ix1 e) :=
  shapeCast_apply x h (ix2 e (0 : Fin 1)) (ix1 e) (by
    rw [Shape.rowMajor_val_one, Shape.rowMajor_val_two]
    show e.val = e.val * 1 + 0
    omega)

/-- The kernel's self-dynamics array is the reference's stage. -/
theorem self_eq (x0 : (⟨Cert.KernelIdeal.S100000x16, .f32⟩ : BufTy).Contents (Elt Ideal)) :
    Cert.KernelIdeal.SelfRegion.grown (F := Ideal) x0 = Cert.ReferenceIdeal.Read.val_main_v11 (F := Ideal) x0 :=
  funext fun i => (Cert.ReferenceIdeal.Stages.self_apply x0 i).symm

/-- The kernel's message array is the reference's stage. -/
theorem messages_eq (x0 : (⟨Cert.KernelIdeal.S100000x16, .f32⟩ : BufTy).Contents (Elt Ideal))
    (x1 x2 : (⟨Cert.KernelIdeal.S3200000, .i32⟩ : BufTy).Contents (Elt Ideal))
    (x3 : (⟨Cert.KernelIdeal.S3200000, .f32⟩ : BufTy).Contents (Elt Ideal)) :
    Cert.KernelIdeal.MsgRegion.messages (F := Ideal)
        (shapeCast Cert.KernelIdeal.S3200000x1 x3 Cert.KernelIdeal.Facts₀.shapeCasts_S3200000_S3200000x1)
        (Cert.KernelIdeal.HostSide.rowsAt x0 x1) (Cert.KernelIdeal.HostSide.rowsAt x0 x2)
      = Cert.ReferenceIdeal.Read.val_main_v37 (F := Ideal) x0 x1 x2 x3 :=
  funext fun i => by
    rw [Cert.ReferenceIdeal.Stages.message_apply]
    unfold Cert.KernelIdeal.MsgRegion.messages
    rw [column_apply]
    rfl

/-- The kernel's result is the reference's. -/
theorem value_eq (x0 : (⟨Cert.KernelIdeal.S100000x16, .f32⟩ : BufTy).Contents (Elt Ideal))
    (x1 x2 : (⟨Cert.KernelIdeal.S3200000, .i32⟩ : BufTy).Contents (Elt Ideal))
    (x3 : (⟨Cert.KernelIdeal.S3200000, .f32⟩ : BufTy).Contents (Elt Ideal)) :
    addf (Cert.KernelIdeal.SelfRegion.grown (F := Ideal) x0)
        (Cert.KernelIdeal.HostSide.summed x1
          (Cert.KernelIdeal.MsgRegion.messages (F := Ideal)
            (shapeCast Cert.KernelIdeal.S3200000x1 x3 Cert.KernelIdeal.Facts₀.shapeCasts_S3200000_S3200000x1)
            (Cert.KernelIdeal.HostSide.rowsAt x0 x1) (Cert.KernelIdeal.HostSide.rowsAt x0 x2)))
      = Cert.ReferenceIdeal.Read.val_main_v41 (F := Ideal) x0 x1 x2 x3 := by
  rw [self_eq, messages_eq]
  rfl

end Cert.Bridge

end
-- ==== Proof.lean ====
/-
  Mutualistic dynamics on a graph: a two-region kernel against its whole-array reference.

  For a state array x [100000, 16], 3200000 edges (source s, destination d, weight w) both programs compute, per node n
  and coordinate k,
      0.1 + x[n,k]·(1 − x[n,k]/5)·(x[n,k]/1 − 1)  +  Σ over edges e with s(e) = n of  w(e)·x[s(e),k]·x[d(e),k] / (5 + 0.9·x[s(e),k] + 0.1·x[d(e),k]).
  The kernel computes the first summand in one gridded region (20 blocks of 5000 rows) and the messages in another (400
  blocks of 8000 edges), gathering the rows and adding the messages up on the host; the reference does everything by
  whole-array operations. The constants are the same 32-bit words on both sides and the operations come in the same
  order, so at the ideal instance the two results are one array without any law of arithmetic (`Bridge.value_eq`), and
  the precondition is never opened. The only difference in spelling is how the weights become a column: a reshape in
  the kernel, a broadcast in the reference; both read the weight of the row.

  The frames of the two kernel programs are their frame certificates; the reference's frame is its run with the result
  dropped; the idealization rewrote nothing, so it preserves the kernel trivially.
-/
import proofs.«121304_j12206297055729_2_alg».proof.Defs
import proofs.«121304_j12206297055729_2_alg».proof.Proof.Gen.Kernel
import proofs.«121304_j12206297055729_2_alg».proof.Proof.Gen.Kernel.Skeleton
import proofs.«121304_j12206297055729_2_alg».proof.Proof.Gen.Kernel.Launch
import proofs.«121304_j12206297055729_2_alg».proof.Proof.Gen.Kernel.Points
import proofs.«121304_j12206297055729_2_alg».proof.Proof.Gen.Kernel.Frame
import proofs.«121304_j12206297055729_2_alg».proof.Proof.Gen.KernelIdeal
import proofs.«121304_j12206297055729_2_alg».proof.Proof.Gen.KernelIdeal.Skeleton
import proofs.«121304_j12206297055729_2_alg».proof.Proof.Gen.KernelIdeal.Launch
import proofs.«121304_j12206297055729_2_alg».proof.Proof.Gen.KernelIdeal.Points
import proofs.«121304_j12206297055729_2_alg».proof.Proof.Gen.KernelIdeal.Frame
import proofs.«121304_j12206297055729_2_alg».proof.Proof.Gen.ReferenceIdeal
import proofs.«121304_j12206297055729_2_alg».proof.Proof.Gen.Pre_finite_inputs
import proofs.«121304_j12206297055729_2_alg».proof.Proof.Gen.ReferenceIdeal.Run
import proofs.«121304_j12206297055729_2_alg».proof.Proof.Gen.ReferenceIdeal.Read
import proofs.«121304_j12206297055729_2_alg».proof.Proof.KernelRun
import proofs.«121304_j12206297055729_2_alg».proof.Proof.HostSide
import proofs.«121304_j12206297055729_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the reference's last stage of the kernel's launch
    arrays: the kernel by its run, the fold of its segments and the bridge; the reference by its run. -/
theorem algebraic : Cert.algebraic_KernelIdeal_ReferenceIdeal := by
  intro m ρ m' ρ' _ hagree
  refine ⟨fun c => Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.HostSide.result m ρ c).trans (Cert.Bridge.value_eq _ _ _ _)), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v41_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
